-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S64 .f32) (main_arg7 : FVec F S1600000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1600000 .f32 := Host.absf main_arg7
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x256 .f32) (main_arg1 : FVec F S256x128 .f32) (main_arg2 : FVec F S128 .f32) (main_arg3 : FVec F S128x64 .f32) (main_arg4 : FVec F S64 .f32) (main_arg5 : IVec S1600000 32) (main_arg6 : IVec S1600000 32) (main_arg7 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg7 main_v13 main_v16
-- ==== Kernel.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 46
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x64, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run, with its result named.

  @main is four segments: the first pallas_call (x·w1, fifty row blocks), the host lines of the first sparse
  aggregation, the second pallas_call (relu(h + b1)·w2, fifty row blocks), and the host lines of the second sparse
  aggregation with the final bias. The buffer contents at the four boundaries are the fold `W1 … W4` of the generated frame
  module; every weakly fair execution ends with every unscoped buffer at `W4`. Here that final state is read at the
  result buffer as well as at the eight arguments: the result ends at `W4` of its reference, the arguments as launched.
-/
import proofs.«172908_j27178553049560_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, the result
    buffer holding the last boundary's contents `W4` at its reference and every argument array what it held at launch. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.RefLayer.lean ====
/-
  The reference's second dense layer as ONE function of the array it is applied to.

  After the first sparse aggregation the reference adds the bias row to every row, takes the maximum with zero, and
  multiplies by the second weight matrix. Written over an arbitrary aggregated array `h` (and bias row `b`, weights `w`)
  this is `layer h b w`; read at an index it is the sum over the 128 hidden coordinates `k` of
  `max (h (r, k) + b (0, k)) 0 · w (k, q)`. The reference's own stage for that product is `layer` of its stages for
  the aggregation and for the bias row, by unfolding.
-/
import proofs.«172908_j27178553049560_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.ReferenceIdeal.Layer

open Cert.ReferenceIdeal Cert.ReferenceIdeal.Gen Cert.ReferenceIdeal.Read Idealize.ShloMosaic Idealize.ShloMosaic.TcCoe Idealize.SL.Sem

/-- Bias, rectifier and product with the second weight matrix, of any array of hidden rows. -/
def layer (h : FVec Ideal S100000x128 .f32) (b : FVec Ideal S1x128 .f32)
    (w : FVec Ideal S128x64 .f32) : FVec Ideal S100000x64 .f32 :=
  Host.dotGeneral (F := Ideal) dot_S100000x128_S128x64_S100000x64_1_0_0_1_n_n none
    (maximumf (addf h (broadcastInDim S100000x128 ![0, 1] bcast_S1x128_S100000x128_0_1 b))
      (broadcastInDim S100000x128 ![] bcast_S_S100000x128 (constant (F := Ideal) S_ .f32 0x00000000#32))) w

/-- The rectified, biased entry: the bias row's entry of the same column is added, and zero is the floor. -/
theorem act_apply (h : FVec Ideal S100000x128 .f32) (b : FVec Ideal S1x128 .f32)
    (j : S100000x128.Idx) :
    maximumf (addf h (broadcastInDim S100000x128 ![0, 1] bcast_S1x128_S100000x128_0_1 b))
      (broadcastInDim S100000x128 ![] bcast_S_S100000x128 (constant (F := Ideal) S_ .f32 0x00000000#32)) j
      = max (h j + b (idx_main_v15 j)) 0 := by
  show max (h j + broadcastInDim S100000x128 ![0, 1] bcast_S1x128_S100000x128_0_1 b j)
      (broadcastInDim S100000x128 ![] bcast_S_S100000x128 (constant (F := Ideal) S_ .f32 0x00000000#32) j) = _
  rw [broadcastInDim_apply _ bcast_S1x128_S100000x128_0_1 b j (idx_main_v15 j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)]),
    broadcastInDim_apply _ bcast_S_S100000x128 (constant (F := Ideal) S_ .f32 0x00000000#32) j (idx_main_call0_v0 j) (fun a => a.elim0)]
  show max (h j + b (idx_main_v15 j)) (Ideal.ofBits .f32 0x00000000#32) = _
  rw [Ideal.ofBits_zero_f32]

/-- The host's product of any array of hidden rows with the second weight matrix, as a sum over the hidden coordinate. -/
theorem dot_apply (y0 : FVec Ideal S100000x128 .f32) (w : FVec Ideal S128x64 .f32)
    (i : S100000x64.Idx) :
    Host.dotGeneral (F := Ideal) dot_S100000x128_S128x64_S100000x64_1_0_0_1_n_n none y0 w i = ∑ k : Fin 128, y0 (lidx_main_v18 i k) * w (ridx_main_v18 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v18 i k := funext fun a => Fin.ext (by
    match a with
    | ⟨0, _⟩ => exact lhs_main_v18_0 _ _
    | ⟨1, _⟩ => exact (lhs_main_v18_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- The layer at an index: the sum over the 128 hidden coordinates of rectified biased entries times weights. -/
theorem layer_apply (h : FVec Ideal S100000x128 .f32) (b : FVec Ideal S1x128 .f32)
    (w : FVec Ideal S128x64 .f32) (i : S100000x64.Idx) :
    layer h b w i = ∑ k : Fin 128, max (h (lidx_main_v18 i k) + b (idx_main_v15 (lidx_main_v18 i k))) 0 * w (ridx_main_v18 i k) := by
  unfold layer
  refine (dot_apply _ w i).trans ?_
  refine Finset.sum_congr rfl fun k _ => ?_
  rw [act_apply]

/-- The reference's product stage is the layer of its aggregation stage and its bias-row stage. -/
theorem val_main_v18_eq_layer (x0 : (⟨S100000x256, .f32⟩ : BufTy).Contents (Elt Ideal)) (x1 : (⟨S256x128, .f32⟩ : BufTy).Contents (Elt Ideal))
    (x2 : (⟨S128, .f32⟩ : BufTy).Contents (Elt Ideal)) (x3 : (⟨S128x64, .f32⟩ : BufTy).Contents (Elt Ideal))
    (x5 x6 : (⟨S1600000, .i32⟩ : BufTy).Contents (Elt Ideal)) (x7 : (⟨S1600000, .f32⟩ : BufTy).Contents (Elt Ideal)) :
    val_main_v18 (F := Ideal) x0 x1 x2 x3 x5 x6 x7 = layer (val_main_v13 (F := Ideal) x0 x1 x5 x6 x7) (val_main_v14 (F := Ideal) x2) x3 := rfl

end Cert.ReferenceIdeal.Layer

end
-- ==== Proof.Region0.lean ====
/-
  The first pallas_call's array: the whole product of the node features with the first weight matrix.

  The grid has fifty points; point `t` stages rows `2000·t … 2000·t + 1999` of the features (all 256 columns) and the
  whole weight matrix, and its body stores their product into a zeroed accumulator — at the ideal instance the rounding
  to bf16 on the way in is the identity, so the stored block's entry `(p, q)` is `∑ k, x (p, k) · w (k, q)`. The host
  reference's first stage is the product of the whole arrays, whose entry `(r, q)` is the same sum over `k` with `r` a row
  of the whole array. Block `t`'s entry `(p, q)` sits at row `2000·t + p`, column `q`: the written-back block is the
  block of the whole product, the fifty blocks cover every row, and the array the region leaves is the reference's stage.
  All of it is stated at the contents `V` the region is entered with.
-/
import proofs.«172908_j27178553049560_1_alg».proof.Proof.Gen.KernelIdeal.Frame
import proofs.«172908_j27178553049560_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-- The left operand's index for output entry `y` and shared coordinate `k`: row of `y`, column `k`. -/
abbrev lhsAt (y : S2000x128.Idx) (k : Fin 256) : S2000x256.Idx := fun a => match a with
  | ⟨0, _⟩ => ⟨(y 0).val, (y 0).isLt⟩
  | ⟨1, _⟩ => ⟨k.val, k.isLt⟩
/-- The right operand's index: row `k`, column of `y`. -/
abbrev rhsAt (y : S2000x128.Idx) (k : Fin 256) : S256x128.Idx := fun a => match a with
  | ⟨0, _⟩ => ⟨k.val, k.isLt⟩
  | ⟨1, _⟩ => ⟨(y 1).val, (y 1).isLt⟩

theorem lhs_row (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem rhs_col (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

theorem pay_apply (x : Vec Ideal S2000x256 .f32) (w : Vec Ideal S256x128 .f32) (y : S2000x128.Idx) :
    k0_pay1 (F := Ideal) x w y = ∑ k : Fin 256, x (lhsAt y k) * w (rhsAt y k) := by
  unfold k0_pay1
  refine (Ideal.matmul_constant_zero_apply dot_S2000x256_S256x128_S2000x128_1_0_0_1_n_n none _ _ y).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx y ((ValueIdx.contrEquiv1 dot_S2000x256_S256x128_S2000x128_1_0_0_1_n_n 256 rfl rfl).symm k) = lhsAt y k := funext fun a => Fin.ext (by
    match a with
    | ⟨0, _⟩ => exact lhs_row _ _
    | ⟨1, _⟩ => exact (dot_S2000x256_S256x128_S2000x128_1_0_0_1_n_n.lhsIdx_val_of_single rfl y _).trans hk)
  have er : dot_S2000x256_S256x128_S2000x128_1_0_0_1_n_n.rhsIdx y ((ValueIdx.contrEquiv1 dot_S2000x256_S256x128_S2000x128_1_0_0_1_n_n 256 rfl rfl).symm k) = rhsAt y k := funext fun a => Fin.ext (by
    match a with
    | ⟨0, _⟩ => exact (dot_S2000x256_S256x128_S2000x128_1_0_0_1_n_n.rhsIdx_val_of_single rfl y _).trans hk
    | ⟨1, _⟩ => exact rhs_col _ _)
  rw [el, er]
  rfl

theorem hz : (![0, 0] : Fin 2 → Nat) = fun _ => 0 := funext fun a => by fin_cases a <;> rfl

theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

theorem idx_onto : ∀ q : Fin 50, ∃ t : Fin cfg0.N, win0_2.index t = ![q.val, 0] :=
  (by decide +kernel : ∀ q : Fin 50, ∃ t : Fin grid0.N, win0_2.index t = ![q.val, 0])

/-- One block against the whole product: when `x` is block `t` of the rows `X` and `w` is all of `W`, the body's
    product at `j` is the whole product `X·W` at `j`'s place in the array (row `2000·t + j₀`, column `j₁`): both are the
    sum over the 256 shared coordinates. -/
theorem block_eq (X : (⟨Cert.ReferenceIdeal.S100000x256, .f32⟩ : BufTy).Contents (Elt Ideal))
    (W : (⟨Cert.ReferenceIdeal.S256x128, .f32⟩ : BufTy).Contents (Elt Ideal)) (t : Fin cfg0.N)
    (x : Vec Ideal S2000x256 .f32) (w : Vec Ideal S256x128 .f32)
    (hx : ∀ y, x y = X (((cfg0.win 0).blk t).view.emb y)) (hw : ∀ y, w y = W (((cfg0.win 1).blk t).view.emb y))
    (j : S2000x128.Idx) :
    k0_pay1 (F := Ideal) x w j = Cert.ReferenceIdeal.Read.val_main_v0 (F := Ideal) X W (((cfg0.win 2).blk t).view.emb j) := by
  refine (pay_apply x w j).trans ?_
  refine Eq.trans ?_ (Cert.ReferenceIdeal.Read.val_main_v0_apply X W _).symm
  refine Finset.sum_congr rfl fun k _ => ?_
  obtain ⟨e0, e1, e2, e3, e4, e5⟩ := idx_facts t
  have h0 : ((cfg0.win 0).blk t).view.emb (lhsAt j k) = Cert.ReferenceIdeal.Read.lidx_main_v0 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (rhsAt j k) = Cert.ReferenceIdeal.Read.ridx_main_v0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hx, hw, h0, h1]

variable (V : (c : Dev nD) → (b : Ref sig .tc) → Buf (Elt Ideal) ((c : Thread nD τ).loc b))

/-- What point `t` writes back is block `t` of the whole product of the two arrays the region finds. -/
theorem flushed_eq (c : Dev nD) (t : Fin cfg0.N) :
    (dat0 V c).flushed 2 t = ((cfg0.win 2).blk t).view.read (Elt Ideal)
      (Cert.ReferenceIdeal.Read.val_main_v0 (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  funext j
  exact block_eq (V c main_arg0) (V c main_arg1) t (iblk0 V c 0 t) (iblk0 V c 1 t) (fun _ => rfl) (fun _ => rfl) j

theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

theorem final (c : Dev nD) :
    (dat0 V c).arrAt 2 cfg0.N = Cert.ReferenceIdeal.Read.val_main_v0 (F := Ideal) (V c main_arg0) (V c main_arg1) :=
  (dat0 V c).arrAt_eq_of_cover 2 _ (fun t _ => flushed_eq V c t) cover

end Cert.KernelIdeal.Region0

end
-- ==== Proof.Region1.lean ====
/-
  The second pallas_call's array: the reference's second dense layer of the arrays the region finds.

  Point `t` of fifty stages rows `2000·t … 2000·t + 1999` of the aggregated hidden array (all 128 columns), the bias as
  one row of 128, and the whole second weight matrix; its body adds the bias row to every row, takes the maximum with
  zero, and stores the product with the weights into a zeroed accumulator. At the ideal instance the rounding to bf16 is
  the identity, so entry `(p, q)` of the stored block is `∑ k, max (h (p, k) + b (0, k)) 0 · w (k, q)`: the entry at row
  `2000·t + p`, column `q`, of the reference's layer (bias, rectifier, product) of the whole arrays. The fifty blocks
  cover every row. All of it is stated at the contents `V` the region is entered with.
-/
import proofs.«172908_j27178553049560_1_alg».proof.Proof.Gen.KernelIdeal.Frame
import proofs.«172908_j27178553049560_1_alg».proof.Proof.RefLayer
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-- The hidden block's index for output entry `y` and hidden coordinate `k`: row of `y`, column `k`. -/
abbrev lhsAt (y : S2000x64.Idx) (k : Fin 128) : S2000x128.Idx := fun a => match a with
  | ⟨0, _⟩ => ⟨(y 0).val, (y 0).isLt⟩
  | ⟨1, _⟩ => ⟨k.val, k.isLt⟩
/-- The weight matrix's index: row `k`, column of `y`. -/
abbrev rhsAt (y : S2000x64.Idx) (k : Fin 128) : S128x64.Idx := fun a => match a with
  | ⟨0, _⟩ => ⟨k.val, k.isLt⟩
  | ⟨1, _⟩ => ⟨(y 1).val, (y 1).isLt⟩
/-- The bias row's index: its one row, column `k`. -/
abbrev biasAt (k : Fin 128) : S1x128.Idx := fun a => match a with
  | ⟨0, _⟩ => ⟨0, Nat.one_pos⟩
  | ⟨1, _⟩ => ⟨k.val, k.isLt⟩

theorem lhs_row (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem rhs_col (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One row broadcast over the 2000 rows of a block reads, at any entry, the row's entry of the same column. -/
theorem bias_row (v : Vec Ideal S1x128 .f32) (j : S2000x128.Idx) (k : S1x128.Idx) (hk0 : (k 0).val = 0) (hk1 : (k 1).val = (j 1).val) :
    broadcastTo S2000x128 v broadcasts_S1x128_S2000x128 j = v k :=
  broadcastTo_apply v broadcasts_S1x128_S2000x128 j k (fun a => match a with
    | ⟨0, _⟩ => by show (k 0).val = if (1 : Nat) = 1 then 0 else _; rw [if_pos rfl]; exact hk0
    | ⟨1, _⟩ => by show (k 1).val = if (128 : Nat) = 1 then 0 else (j 1).val; rw [if_neg (by decide)]; exact hk1)

/-- The body's stored value at an entry: the sum over the hidden coordinate of rectified biased entries times weights. -/
theorem pay_apply (x : Vec Ideal S2000x128 .f32) (b : Vec Ideal S1x128 .f32) (w : Vec Ideal S128x64 .f32) (y : S2000x64.Idx) :
    k1_pay1 (F := Ideal) x b w y = ∑ k : Fin 128, max (x (lhsAt y k) + b (biasAt k)) 0 * w (rhsAt y k) := by
  unfold k1_pay1
  refine (Ideal.matmul_constant_zero_apply dot_S2000x128_S128x64_S2000x64_1_0_0_1_n_n none _ _ y).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx y ((ValueIdx.contrEquiv1 dot_S2000x128_S128x64_S2000x64_1_0_0_1_n_n 128 rfl rfl).symm k) = lhsAt y k := funext fun a => Fin.ext (by
    match a with
    | ⟨0, _⟩ => exact lhs_row _ _
    | ⟨1, _⟩ => exact (dot_S2000x128_S128x64_S2000x64_1_0_0_1_n_n.lhsIdx_val_of_single rfl y _).trans hk)
  have er : dot_S2000x128_S128x64_S2000x64_1_0_0_1_n_n.rhsIdx y ((ValueIdx.contrEquiv1 dot_S2000x128_S128x64_S2000x64_1_0_0_1_n_n 128 rfl rfl).symm k) = rhsAt y k := funext fun a => Fin.ext (by
    match a with
    | ⟨0, _⟩ => exact (dot_S2000x128_S128x64_S2000x64_1_0_0_1_n_n.rhsIdx_val_of_single rfl y _).trans hk
    | ⟨1, _⟩ => exact rhs_col _ _)
  rw [el, er]
  show max (shapeCast S2000x128 x shapeCasts_S2000x128_S2000x128 (lhsAt y k)
      + broadcastTo S2000x128 (shapeCast S1x128 b shapeCasts_S1x128_S1x128) broadcasts_S1x128_S2000x128 (lhsAt y k))
      (Ideal.ofBits .f32 0x00000000#32) * w (rhsAt y k) = _
  rw [shapeCast_self, shapeCast_self, bias_row b (lhsAt y k) (biasAt k) rfl rfl, Ideal.ofBits_zero_f32]

theorem hz : (![0, 0] : Fin 2 → Nat) = fun _ => 0 := funext fun a => by fin_cases a <;> rfl

/-- The printed index maps, decided over the fifty points: the hidden rows move with the output rows, every other
    block index is zero. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 49 :=
  (by decide +kernel : ∀ t : Fin grid1.N, _)

/-- Every one of the fifty row blocks is some point's. -/
theorem idx_onto : ∀ q : Fin 50, ∃ t : Fin cfg1.N, win1_3.index t = ![q.val, 0] :=
  (by decide +kernel : ∀ q : Fin 50, ∃ t : Fin grid1.N, win1_3.index t = ![q.val, 0])

/-- One block against the whole layer: when `x` is block `t` of the hidden rows `H`, `b` the bias row `B` and `w` all of
    `W`, the body's value at `j` is the layer of the whole arrays at `j`'s place in the array (row `2000·t + j₀`, column
    `j₁`): both are the sum over the 128 hidden coordinates. -/
theorem block_eq (H : FVec Ideal Cert.ReferenceIdeal.S100000x128 .f32) (B : FVec Ideal Cert.ReferenceIdeal.S1x128 .f32)
    (W : FVec Ideal Cert.ReferenceIdeal.S128x64 .f32) (t : Fin cfg1.N)
    (x : Vec Ideal S2000x128 .f32) (b : Vec Ideal S1x128 .f32) (w : Vec Ideal S128x64 .f32)
    (hx : ∀ y, x y = H (((cfg1.win 0).blk t).view.emb y)) (hb : ∀ y, b y = B (((cfg1.win 1).blk t).view.emb y))
    (hw : ∀ y, w y = W (((cfg1.win 2).blk t).view.emb y)) (j : S2000x64.Idx) :
    k1_pay1 (F := Ideal) x b w j = Cert.ReferenceIdeal.Layer.layer H B W (((cfg1.win 3).blk t).view.emb j) := by
  refine (pay_apply x b w j).trans ?_
  refine Eq.trans ?_ (Cert.ReferenceIdeal.Layer.layer_apply H B W _).symm
  refine Finset.sum_congr rfl fun k _ => ?_
  obtain ⟨e0, e1, e2, e3, e4, e5, e6, e7⟩ := idx_facts t
  have h0 : ((cfg1.win 0).blk t).view.emb (lhsAt j k) = Cert.ReferenceIdeal.Read.lidx_main_v18 (((cfg1.win 3).blk t).view.emb j) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have h1 : ((cfg1.win 1).blk t).view.emb (biasAt k) = Cert.ReferenceIdeal.Read.idx_main_v15 (Cert.ReferenceIdeal.Read.lidx_main_v18 (((cfg1.win 3).blk t).view.emb j) k) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (rhsAt j k) = Cert.ReferenceIdeal.Read.ridx_main_v18 (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  rw [hx, hb, hw, h0, h1, h2]

variable (V : (c : Dev nD) → (b : Ref sig .tc) → Buf (Elt Ideal) ((c : Thread nD τ).loc b))

/-- What point `t` writes back is block `t` of the layer of the three arrays the region finds. -/
theorem flushed_eq (c : Dev nD) (t : Fin cfg1.N) :
    (dat1 V c).flushed 3 t = ((cfg1.win 3).blk t).view.read (Elt Ideal)
      (Cert.ReferenceIdeal.Layer.layer (V c main_v13) (V c main_v14) (V c main_arg3)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x64) hz]
  funext j
  exact block_eq (V c main_v13) (V c main_v14) (V c main_arg3) t (iblk1 V c 0 t) (iblk1 V c 1 t) (iblk1 V c 2 t)
    (fun _ => rfl) (fun _ => rfl) (fun _ => rfl) j

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v15).slice (win1_3.rect t)).set ↔ _
  rw [View.set_slice_whole, Rect.mem_set_unit]
  exact Iff.rfl

/-- Every index of the array is in the block of the point that owns its row: row `r` belongs to point `r / 2000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The array the second region leaves: the layer of the aggregated array, the bias row and the weights it found. -/
theorem final (c : Dev nD) :
    (dat1 V c).arrAt 3 cfg1.N = Cert.ReferenceIdeal.Layer.layer (V c main_v13) (V c main_v14) (V c main_arg3) :=
  (dat1 V c).arrAt_eq_of_cover 3 _ (fun t _ => flushed_eq V c t) cover

end Cert.KernelIdeal.Region1

end
-- ==== Proof.Fold.lean ====
/-
  The boundary contents of the kernel program's run, read as the reference's stages.

  The run's fold through @main is `W1` (after the first pallas_call), `W2` (after the host lines of the first sparse
  aggregation and the reshape of the bias), `W3` (after the second pallas_call) and `W4` (after the host lines of the
  second aggregation and the final bias). The first region's array is the whole product x·w1; the host lines that follow
  are, line for line, the reference's gather by column index, scaling by the edge value and scatter-add by row index, so
  the aggregated array is the reference's stage of the same name — the chain is carried as it stands, never opened. The
  bias reshaped to one row is the reference's bias broadcast to one row (both read the bias at the column). The second
  region's array is the layer of those, which is the reference's second product stage; and the last host lines are
  again the reference's, so the result buffer ends at the reference's last stage of the launch arguments.
-/
import proofs.«172908_j27178553049560_1_alg».proof.Proof.Gen.KernelIdeal.Frame
import proofs.«172908_j27178553049560_1_alg».proof.Proof.Gen.ReferenceIdeal.Read
import proofs.«172908_j27178553049560_1_alg».proof.Proof.RefLayer
import proofs.«172908_j27178553049560_1_alg».proof.Proof.Region0
import proofs.«172908_j27178553049560_1_alg».proof.Proof.Region1
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first region its output array is the whole product of the features and the first weights. -/
theorem W1_v0 (c : Dev nD) : W1 m ρ c (Proc.devRef .tc main_v0)
    = Cert.ReferenceIdeal.Read.val_main_v0 (F := Ideal) (m ((c : Thread nD τ).loc main_arg0)) (m ((c : Thread nD τ).loc main_arg1)) :=
  (W1_arr m ρ c 2).trans (Region0.final (V0 m ρ) c)

/-- After the host lines between the regions the aggregated array is the reference's first aggregation stage. -/
theorem W2_v13 (c : Dev nD) : W2 m ρ c (Proc.devRef .tc main_v13)
    = Cert.ReferenceIdeal.Read.val_main_v13 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  have h0 := W1_v0 m ρ c
  have h5 : W1 m ρ c (Proc.devRef .tc main_arg5) = m ((c : Thread nD τ).loc main_arg5) := W1_of_ne m ρ c main_arg5 (by decide)
  have h6 : W1 m ρ c (Proc.devRef .tc main_arg6) = m ((c : Thread nD τ).loc main_arg6) := W1_of_ne m ρ c main_arg6 (by decide)
  have h7 : W1 m ρ c (Proc.devRef .tc main_arg7) = m ((c : Thread nD τ).loc main_arg7) := W1_of_ne m ρ c main_arg7 (by decide)
  show StableHlo.after hostOps1 (W1 m ρ c) (Proc.devRef .tc main_v13) = _
  generalize W1 m ρ c = W at h0 h5 h6 h7 ⊢
  after_results_simp
  rw [h0, h5, h6, h7]
  rfl

/-- A vector of 128 reshaped to one row is that vector broadcast to one row: entry `(0, q)` is the vector's entry `q`. -/
theorem reshape_row (x : (⟨Cert.ReferenceIdeal.S128, .f32⟩ : BufTy).Contents (Elt Ideal)) :
    shapeCast S1x128 x shapeCasts_S128_S1x128 = Cert.ReferenceIdeal.Read.val_main_v14 (F := Ideal) x := by
  funext j
  rw [Cert.ReferenceIdeal.Read.val_main_v14_apply]
  refine shapeCast_apply x shapeCasts_S128_S1x128 j (Cert.ReferenceIdeal.Read.idx_main_v14 j) ?_
  rw [Shape.rowMajor_val_one, Shape.rowMajor_val_two]
  show (j 1).val = (j 0).val * 128 + (j 1).val
  have h : (j 0).val < 1 := (j 0).isLt
  omega

/-- The bias row the second region stages is the reference's bias row. -/
theorem W2_v14 (c : Dev nD) : W2 m ρ c (Proc.devRef .tc main_v14) = Cert.ReferenceIdeal.Read.val_main_v14 (F := Ideal) (m ((c : Thread nD τ).loc main_arg2)) := by
  have h2 : W1 m ρ c (Proc.devRef .tc main_arg2) = m ((c : Thread nD τ).loc main_arg2) := W1_of_ne m ρ c main_arg2 (by decide)
  show StableHlo.after hostOps1 (W1 m ρ c) (Proc.devRef .tc main_v14) = _
  generalize W1 m ρ c = W at h2 ⊢
  after_results_simp
  rw [h2]
  exact reshape_row _

/-- No line between the regions writes an argument: each is still as launched when the second region starts. -/
theorem W2_arg (c : Dev nD) :
    W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7) := by
  have h3 : W1 m ρ c (Proc.devRef .tc main_arg3) = m ((c : Thread nD τ).loc main_arg3) := W1_of_ne m ρ c main_arg3 (by decide)
  have h4 : W1 m ρ c (Proc.devRef .tc main_arg4) = m ((c : Thread nD τ).loc main_arg4) := W1_of_ne m ρ c main_arg4 (by decide)
  have h5 : W1 m ρ c (Proc.devRef .tc main_arg5) = m ((c : Thread nD τ).loc main_arg5) := W1_of_ne m ρ c main_arg5 (by decide)
  have h6 : W1 m ρ c (Proc.devRef .tc main_arg6) = m ((c : Thread nD τ).loc main_arg6) := W1_of_ne m ρ c main_arg6 (by decide)
  have h7 : W1 m ρ c (Proc.devRef .tc main_arg7) = m ((c : Thread nD τ).loc main_arg7) := W1_of_ne m ρ c main_arg7 (by decide)
  show StableHlo.after hostOps1 (W1 m ρ c) (Proc.devRef .tc main_arg3) = _
    ∧ StableHlo.after hostOps1 (W1 m ρ c) (Proc.devRef .tc main_arg4) = _
    ∧ StableHlo.after hostOps1 (W1 m ρ c) (Proc.devRef .tc main_arg5) = _
    ∧ StableHlo.after hostOps1 (W1 m ρ c) (Proc.devRef .tc main_arg6) = _
    ∧ StableHlo.after hostOps1 (W1 m ρ c) (Proc.devRef .tc main_arg7) = _
  generalize W1 m ρ c = W at h3 h4 h5 h6 h7 ⊢
  after_results_simp
  exact ⟨h3, h4, h5, h6, h7⟩

/-- After the second region its output array is the reference's second product stage. -/
theorem W3_v15 (c : Dev nD) : W3 m ρ c (Proc.devRef .tc main_v15)
    = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (W3_arr m ρ c 3).trans ((Region1.final (V2 m ρ) c).trans ?_)
  show Cert.ReferenceIdeal.Layer.layer (W2 m ρ c (Proc.devRef .tc main_v13)) (W2 m ρ c (Proc.devRef .tc main_v14)) (W2 m ρ c (Proc.devRef .tc main_arg3)) = _
  rw [W2_v13, W2_v14, (W2_arg m ρ c).1]
  exact (Cert.ReferenceIdeal.Layer.val_main_v18_eq_layer _ _ _ _ _ _ _).symm

/-- The result buffer ends at the reference's last stage of the launch arguments. -/
theorem W4_v31 (c : Dev nD) : W4 m ρ c (Proc.devRef .tc main_v31)
    = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h15 := W3_v15 m ρ c
  obtain ⟨-, a4, a5, a6, a7⟩ := W2_arg m ρ c
  have h4 : W3 m ρ c (Proc.devRef .tc main_arg4) = m ((c : Thread nD τ).loc main_arg4) := (W3_of_ne m ρ c main_arg4 (by decide)).trans a4
  have h5 : W3 m ρ c (Proc.devRef .tc main_arg5) = m ((c : Thread nD τ).loc main_arg5) := (W3_of_ne m ρ c main_arg5 (by decide)).trans a5
  have h6 : W3 m ρ c (Proc.devRef .tc main_arg6) = m ((c : Thread nD τ).loc main_arg6) := (W3_of_ne m ρ c main_arg6 (by decide)).trans a6
  have h7 : W3 m ρ c (Proc.devRef .tc main_arg7) = m ((c : Thread nD τ).loc main_arg7) := (W3_of_ne m ρ c main_arg7 (by decide)).trans a7
  show StableHlo.after hostOps2 (W3 m ρ c) (Proc.devRef .tc main_v31) = _
  generalize W3 m ρ c = W at h15 h4 h5 h6 h7 ⊢
  after_results_simp
  rw [h15, h4, h5, h6, h7]
  rfl

end Cert.KernelIdeal.Fold

end
-- ==== Proof.lean ====
/-
  The certificate of a two-layer sparse graph convolution: the kernel program against its plain reference, over the
  extended reals.

  Both programs compute `A·relu(A·(x·w1) + b1)·w2 + b2`, where multiplying by the sparse matrix `A` is the host's gather of
  rows by column index, scaling by the edge values and scatter-add by row index. The reference does the two dense
  products on the host; the kernel program does each in a pallas_call over fifty blocks of 2000 rows, the second one
  with the bias and the rectifier fused in, rounding its operands to bf16 — the identity at the ideal instance. The two
  sparse aggregations and the final bias are the same host lines in both programs.

  The three frames are the generated frame certificates (the reference's is its generated run with the result dropped).
  The ideal pass rewrote nothing in the kernel, so the idealization claim is `True`. For the equality of results: the
  kernel program's run ends with the result buffer at the last boundary's contents (`RunValue.run_result`), which is the
  reference's last stage of the launch arguments (`Fold.W4_v31`: each region's array is the reference's stage because a
  product restricted to a block of rows is that block of the whole product, and the host chains are carried unopened);
  the reference's run ends at the same stage of its own arguments, which agree with the kernel program's. No finiteness
  is used: the only law is that a sum into a zero accumulator is the sum.
-/
import proofs.«172908_j27178553049560_1_alg».proof.Defs
import proofs.«172908_j27178553049560_1_alg».proof.Proof.Gen.Kernel
import proofs.«172908_j27178553049560_1_alg».proof.Proof.Gen.Kernel.Frame
import proofs.«172908_j27178553049560_1_alg».proof.Proof.Gen.KernelIdeal
import proofs.«172908_j27178553049560_1_alg».proof.Proof.Gen.KernelIdeal.Frame
import proofs.«172908_j27178553049560_1_alg».proof.Proof.Gen.ReferenceIdeal
import proofs.«172908_j27178553049560_1_alg».proof.Proof.Gen.ReferenceIdeal.Run
import proofs.«172908_j27178553049560_1_alg».proof.Proof.Gen.ReferenceIdeal.Read
import proofs.«172908_j27178553049560_1_alg».proof.Proof.Gen.Pre_finite_inputs
import proofs.«172908_j27178553049560_1_alg».proof.Proof.KRun
import proofs.«172908_j27178553049560_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal instance both programs end with the result at the reference's last stage of the (agreeing) arguments. -/
theorem algebraic : Cert.algebraic_KernelIdeal_ReferenceIdeal := by
  intro m ρ m' ρ' _ hagree
  refine ⟨fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W4_v31 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    exact Cert.ReferenceIdeal.Read.val_main_v34_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
